-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8 : Shape := ⟨1, ![8]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_

variable [Facts]

def fn_part1 {F : FTy → Type} [FloatOps F] (main_arg4 : FVec F S8x4096x16 .f32) (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  let main_v19 : FVec F S8x4096x16 .f32 := Host.absf main_arg4
  let main_cst_6 : FVec F S_ .f32 := constant S_ .f32 0x7F800000#32
  let main_v20 : FVec F S8x4096x16 .f32 := broadcastInDim S8x4096x16 ![] bcast_S_S8x4096x16 main_cst_6
  let main_v21 : IVec S8x4096x16 1 := cmpf .olt main_v19 main_v20
  let main_c_7 : IVec S_ 1 := constantI S_ 1 1#1
  let main_v22 : IVec S_ 1 := (fun x v => Host.reduce IntOp.andi x v reducesTo_S8x4096x16_S_d0_1_2 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S8x16x4096 .f32) (main_arg4 : FVec F S8x4096x16 .f32) (main_arg5 : IVec S8 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8 : Shape := ⟨1, ![8]⟩
abbrev S_ : Shape := ⟨0, ![]⟩
abbrev S8x1 : Shape := ⟨2, ![8, 1]⟩
abbrev S8x2048x16 : Shape := ⟨3, ![8, 2048, 16]⟩
abbrev S1x1024x1024 : Shape := ⟨3, ![1, 1024, 1024]⟩
abbrev S1024x4096 : Shape := ⟨2, ![1024, 4096]⟩
abbrev S1024 : Shape := ⟨1, ![1024]⟩
abbrev S1x1024x16 : Shape := ⟨3, ![1, 1024, 16]⟩
abbrev S1024x1024 : Shape := ⟨2, ![1024, 1024]⟩
abbrev S1024x16 : Shape := ⟨2, ![1024, 16]⟩
abbrev S1x1024 : Shape := ⟨2, ![1, 1024]⟩

abbrev nBuf : Space → Nat
  | .hbm => 30
  | .vmem => 12
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x16x4096, .f32⟩
  | .hbm, ⟨4, _⟩ => ⟨S8x4096x16, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S8x1, .i32⟩
  | .hbm, ⟨14, _⟩ => ⟨S8x16x4096, .f32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S8x4096x16, .f32⟩
  | .hbm, ⟨24, _⟩ => ⟨S8x2048x16, .f32⟩
  | .hbm, ⟨25, _⟩ => ⟨S8x2048x16, .bf16⟩
  | .hbm, ⟨26, _⟩ => ⟨S8x4096x16, .bf16⟩
  | .hbm, ⟨27, _⟩ => ⟨S8x2048x4096, .bf16⟩
  | .hbm, ⟨28, _⟩ => ⟨S4096x4096, .bf16⟩
  | .hbm, ⟨29, _⟩ => ⟨S8x2048x4096, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x4096, .bf16⟩
  | .local _ .vmem, ⟨3, _⟩ => ⟨S1024, .f32⟩
  | .local _ .vmem, ⟨4, _⟩ => ⟨S1024, .f32⟩
  | .local _ .vmem, ⟨5, _⟩ => ⟨S1x1024x16, .bf16⟩
  | .local _ .vmem, ⟨6, _⟩ => ⟨S1x1024x16, .bf16⟩
  | .local _ .vmem, ⟨7, _⟩ => ⟨S1x1024x16, .bf16⟩
  | .local _ .vmem, ⟨8, _⟩ => ⟨S1x1024x16, .bf16⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨4, ![4, 8, 2, 4], ![false, false, false, false]⟩

def k0_mult1 (i : grid0.Coords) : BitVec 32 :=
  let arg3 : BitVec 32 := BitVec.ofNat 32 (i 3).val
  let c1024_i32 : BitVec 32 := 1024#32
  let v5 : BitVec 32 := Scalar.muli arg3 c1024_i32
  v5
def k0_off1 (i : grid0.Coords) : Fin 2 → Nat :=
  let c0_3 : Index := 0#32
  let arg3 : BitVec 32 := BitVec.ofNat 32 (i 3).val
  let c1024_i32 : BitVec 32 := 1024#32
  let v5 : BitVec 32 := Scalar.muli arg3 c1024_i32
  let v6 : BitVec 32 := v5
  let v7 : Index := Scalar.indexCast v6
  ![0, v7.toNat]
def k0_cond2 (i : grid0.Coords) : BitVec 1 :=
  let arg3 : BitVec 32 := BitVec.ofNat 32 (i 3).val
  let c3_i32 : BitVec 32 := 3#32
  let v16 : BitVec 1 := Scalar.cmpi .eq arg3 c3_i32
  let v17 : BitVec 32 := Scalar.extui v16
  let c0_i32_8 : BitVec 32 := 0#32
  let v18 : BitVec 1 := Scalar.cmpi .ne v17 c0_i32_8
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat, arg0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false, false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S1x1024x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

class Facts₀ : Prop where
  bcast_S_S8 : S_.BroadcastsInDim S8 (![] : Fin 0 → Fin S8.rank)
  bcast_S8_S8x1_0 : S8.BroadcastsInDim S8x1 (![0] : Fin 1 → Fin S8x1.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  gather_S8x16x4096_S8x1_S8x16x4096_12_0_n_n_0_1_1164096_wf : GatherDims.WF S8x16x4096 S8x1 S8x16x4096 [1, 2] [0] [] [0] [] 1 ![1, 16, 4096]
  gather_S8x4096x16_S8x1_S8x4096x16_12_0_n_n_0_1_1409616_wf : GatherDims.WF S8x4096x16 S8x1 S8x4096x16 [1, 2] [0] [] [0] [] 1 ![1, 4096, 16]
  dot_S8x2048x4096_S8x16x4096_S8x2048x16_2_2_1_1_0_0_wf : DotDims.WF S8x2048x4096 S8x16x4096 S8x2048x16 [2] [2] [1] [1] [0] [0]
  dot_S1024x1024_S1024x1024_S1024x1024_1_1_0_0_n_n_wf : DotDims.WF S1024x1024 S1024x1024 S1024x1024 [1] [1] [0] [0] [] []
  dot_S1024x16_S1024x16_S1024x1024_1_1_0_0_n_n_wf : DotDims.WF S1024x16 S1024x16 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x4096.size a
  hwx0_0 : ∀ i : grid0.Coords, EltTy.bits .bf16 = 32 ∨ (Rect.block (s := S8x2048x4096) S1x1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x16.size a ≤ S8x2048x16.size a
  hwx0_3 : ∀ i : grid0.Coords, EltTy.bits .bf16 = 32 ∨ (Rect.block (s := S8x2048x16) S1x1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x16.size a ≤ S8x4096x16.size a
  hwx0_4 : ∀ i : grid0.Coords, EltTy.bits .bf16 = 32 ∨ (Rect.block (s := S8x4096x16) S1x1024x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x2048x4096.size a
  hwx0_5 : ∀ i : grid0.Coords, EltTy.bits .f32 = 32 ∨ (Rect.block (s := S8x2048x4096) S1x1024x1024.size (cc0_transform_5 i) (hinb0_5 i)).WholeWords (EltTy.packing .f32)

variable [Facts₀]

def gather_S8x16x4096_S8x1_S8x16x4096_12_0_n_n_0_1_1164096 : GatherDims S8x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S8x16x4096_S8x1_S8x16x4096_12_0_n_n_0_1_1164096_wf
def gather_S8x4096x16_S8x1_S8x4096x16_12_0_n_n_0_1_1409616 : GatherDims S8x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S8x4096x16_S8x1_S8x4096x16_12_0_n_n_0_1_1409616_wf
def dot_S8x2048x4096_S8x16x4096_S8x2048x16_2_2_1_1_0_0 : DotDims S8x2048x4096 S8x16x4096 S8x2048x16 where
  lhsContracting := [2]
  rhsContracting := [2]
  lhsNonContracting := [1]
  rhsNonContracting := [1]
  lhsBatch := [0]
  rhsBatch := [0]
  wf := dot_S8x2048x4096_S8x16x4096_S8x2048x16_2_2_1_1_0_0_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v17) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8 : Shape := ⟨1, ![8]⟩
abbrev S1x1x4096 : Shape := ⟨3, ![1, 1, 4096]⟩
abbrev S_ : Shape := ⟨0, ![]⟩
abbrev S8x1 : Shape := ⟨2, ![8, 1]⟩
abbrev S8x2048x16 : Shape := ⟨3, ![8, 2048, 16]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x16x4096, .f32⟩
  | .hbm, ⟨4, _⟩ => ⟨S8x4096x16, .f32⟩
  | .hbm, ⟨5, _⟩ => ⟨S8, .i32⟩
  | .hbm, ⟨6, _⟩ => ⟨S8x2048x4096, .f32⟩
  | .hbm, ⟨7, _⟩ => ⟨S1x1x4096, .f32⟩
  | .hbm, ⟨8, _⟩ => ⟨S8x2048x4096, .f32⟩
  | .hbm, ⟨9, _⟩ => ⟨S8x2048x4096, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x16x4096, .f32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S8x4096x16, .f32⟩
  | .hbm, ⟨28, _⟩ => ⟨S8x2048x16, .f32⟩
  | .hbm, ⟨29, _⟩ => ⟨S8x2048x4096, .f32⟩
  | .hbm, ⟨30, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8 : S_.BroadcastsInDim S8 (![] : Fin 0 → Fin S8.rank)
  bcast_S8_S8x1_0 : S8.BroadcastsInDim S8x1 (![0] : Fin 1 → Fin S8x1.rank)
  dot_S8x2048x4096_S4096x4096_S8x2048x4096_2_1_01_0_n_n_wf : DotDims.WF S8x2048x4096 S4096x4096 S8x2048x4096 [2] [1] [0, 1] [0] [] []
  gather_S8x16x4096_S8x1_S8x16x4096_12_0_n_n_0_1_1164096_wf : GatherDims.WF S8x16x4096 S8x1 S8x16x4096 [1, 2] [0] [] [0] [] 1 ![1, 16, 4096]
  gather_S8x4096x16_S8x1_S8x4096x16_12_0_n_n_0_1_1409616_wf : GatherDims.WF S8x4096x16 S8x1 S8x4096x16 [1, 2] [0] [] [0] [] 1 ![1, 4096, 16]
  dot_S8x2048x4096_S8x16x4096_S8x2048x16_2_2_1_1_0_0_wf : DotDims.WF S8x2048x4096 S8x16x4096 S8x2048x16 [2] [2] [1] [1] [0] [0]
  dot_S8x2048x16_S8x4096x16_S8x2048x4096_2_2_1_1_0_0_wf : DotDims.WF S8x2048x16 S8x4096x16 S8x2048x4096 [2] [2] [1] [1] [0] [0]

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def gather_S8x16x4096_S8x1_S8x16x4096_12_0_n_n_0_1_1164096 : GatherDims S8x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S8x16x4096_S8x1_S8x16x4096_12_0_n_n_0_1_1164096_wf
def gather_S8x4096x16_S8x1_S8x4096x16_12_0_n_n_0_1_1409616 : GatherDims S8x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S8x4096x16_S8x1_S8x4096x16_12_0_n_n_0_1_1409616_wf
def dot_S8x2048x4096_S8x16x4096_S8x2048x16_2_2_1_1_0_0 : DotDims S8x2048x4096 S8x16x4096 S8x2048x16 where
  lhsContracting := [2]
  rhsContracting := [2]
  lhsNonContracting := [1]
  rhsNonContracting := [1]
  lhsBatch := [0]
  rhsBatch := [0]
  wf := dot_S8x2048x4096_S8x16x4096_S8x2048x16_2_2_1_1_0_0_wf
def dot_S8x2048x16_S8x4096x16_S8x2048x4096_2_2_1_1_0_0 : DotDims S8x2048x16 S8x4096x16 S8x2048x4096 where
  lhsContracting := [2]
  rhsContracting := [2]
  lhsNonContracting := [1]
  rhsNonContracting := [1]
  lhsBatch := [0]
  rhsBatch := [0]
  wf := dot_S8x2048x16_S8x4096x16_S8x2048x4096_2_2_1_1_0_0_wf

class Facts : Prop extends Facts₀ where

variable [Facts]
-- ==== Proof.Pieces.lean ====
/-
  What each control case of the body leaves behind, as a value.

  The body runs in one of three cases, by the position k of the grid point along the reduction axis:
  first (k = 0), middle (0 < k < 3), last (k = 3). In every case it stores the accumulator once, whole; in the first case
  it has stored the zero tile just before and reads that back; in the last case it also stores the output tile, whole,
  computed from the accumulator it has just stored. So:

  * first:  accumulator := step(x, w, zero tile)
  * middle: accumulator := step(x, w, accumulator before)
  * last:   accumulator := step(x, w, accumulator before), output := finish(u, v, bias, that accumulator)

  where x is the activation block, w the 1024 columns of the resident weight slab that start at column 1024 * k (`wcols`),
  u, v the two low-rank blocks and bias the bias block. Every load reads a whole buffer except the weight columns.
-/
import proofs.«136694_j58918361366727_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 columns of the weight slab that the step at grid coordinates `i` multiplies by: those from column
    1024 * k on, k the reduction coordinate. -/
abbrev wcols (i : grid0.Coords) (x1 : Vec F S1024x4096 .bf16) : Vec F S1024x1024 .bf16 :=
  View.ld x1 (Rect.unit (s := S1024x4096) (k0_off1 i) S1024x1024.size (k0_off1_inb i))

/-- A middle step leaves the accumulator one step further. -/
theorem acc_B (c : Dev nD) (i : grid0.Coords) (arg4 : Memref sig .tc .vmem S1x1024x1024 .bf16) (harg4 : arg4.IsWhole) (arg5 : Memref sig .tc .vmem S1024x4096 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x1024x16 .bf16) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : ¬cond0_1 i)
    (x0 : Vec F S1x1024x1024 .bf16) (x1 : Vec F S1024x4096 .bf16) (x2 : Vec F S1024 .f32) (x3 : Vec F S1x1024x16 .bf16) (x4 : Vec F S1x1024x16 .bf16) (xs0 : Vec F S1024x1024 .f32) :
    sout0_B_0 c i arg4 harg4 arg5 harg5 arg6 harg6 arg7 harg7 arg8 harg8 arg9 harg9 arg10 harg10 hc0 hc1 x0 x1 x2 x3 x4 xs0 = k0_pay2 x0 (wcols i x1) xs0 := by
  unfold sout0_B_0
  rw [View.read_writes_eq_canon _ _ _ (scover0_B_0 c i arg4 harg4 arg5 harg5 arg6 harg6 arg7 harg7 arg8 harg8 arg9 harg9 arg10 harg10 hc0 hc1 x0 x1 x2 x3 x4 xs0)]
  unfold kernelRun0_B
  dsimp only
  rw [View.canon_unit_zero hz2]
  simp only [View.readAt_eq_ld, harg4.read_unread, harg5.read_unread, harg10.read_unread,
    View.ld_unit_zero (S := S1x1024x1024) hz3, View.ld_unit_zero (S := S1024x1024) hz2]

/-- The last step leaves the accumulator one step further too, -/
theorem acc_C (c : Dev nD) (i : grid0.Coords) (arg4 : Memref sig .tc .vmem S1x1024x1024 .bf16) (harg4 : arg4.IsWhole) (arg5 : Memref sig .tc .vmem S1024x4096 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x1024x16 .bf16) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : cond0_1 i)
    (x0 : Vec F S1x1024x1024 .bf16) (x1 : Vec F S1024x4096 .bf16) (x2 : Vec F S1024 .f32) (x3 : Vec F S1x1024x16 .bf16) (x4 : Vec F S1x1024x16 .bf16) (xs0 : Vec F S1024x1024 .f32) :
    sout0_C_0 c i arg4 harg4 arg5 harg5 arg6 harg6 arg7 harg7 arg8 harg8 arg9 harg9 arg10 harg10 hc0 hc1 x0 x1 x2 x3 x4 xs0 = k0_pay2 x0 (wcols i x1) xs0 := by
  unfold sout0_C_0
  rw [View.read_writes_eq_canon _ _ _ (scover0_C_0 c i arg4 harg4 arg5 harg5 arg6 harg6 arg7 harg7 arg8 harg8 arg9 harg9 arg10 harg10 hc0 hc1 x0 x1 x2 x3 x4 xs0)]
  unfold kernelRun0_C
  dsimp only
  sl_unfold_run_names
  rw [View.canon_unit_zero hz2]
  simp only [View.readAt_eq_ld, harg4.read_unread, harg5.read_unread, harg10.read_unread,
    View.ld_unit_zero (S := S1x1024x1024) hz3, View.ld_unit_zero (S := S1024x1024) hz2]

/-- and the output tile computed from that accumulator. -/
theorem out_C (c : Dev nD) (i : grid0.Coords) (arg4 : Memref sig .tc .vmem S1x1024x1024 .bf16) (harg4 : arg4.IsWhole) (arg5 : Memref sig .tc .vmem S1024x4096 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x1024x16 .bf16) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : cond0_1 i)
    (x0 : Vec F S1x1024x1024 .bf16) (x1 : Vec F S1024x4096 .bf16) (x2 : Vec F S1024 .f32) (x3 : Vec F S1x1024x16 .bf16) (x4 : Vec F S1x1024x16 .bf16) (xs0 : Vec F S1024x1024 .f32) :
    out0_C_5 c i arg4 harg4 arg5 harg5 arg6 harg6 arg7 harg7 arg8 harg8 arg9 harg9 arg10 harg10 hc0 hc1 x0 x1 x2 x3 x4 xs0 = k0_pay3 x3 x4 x2 (k0_pay2 x0 (wcols i x1) xs0) := by
  unfold out0_C_5
  rw [View.read_writes_eq_canon _ _ _ (cover0_C_5 c i arg4 harg4 arg5 harg5 arg6 harg6 arg7 harg7 arg8 harg8 arg9 harg9 arg10 harg10 hc0 hc1 x0 x1 x2 x3 x4 xs0)]
  unfold kernelRun0_C
  dsimp only
  sl_unfold_run_names
  rw [View.canon_unit_zero hz3, View.readCov_unit_zero (S := S1024x1024) _ hz2]
  simp only [View.readAt_eq_ld, harg4.read_unread, harg5.read_unread, harg6.read_unread, harg7.read_unread,
    harg8.read_unread, harg10.read_unread, View.ld_unit_zero (S := S1x1024x1024) hz3,
    View.ld_unit_zero (S := S1024x1024) hz2, View.ld_unit_zero (S := S1x1024x16) hz3, View.ld_unit_zero (S := S1024) hz1]

/-- The first step stores the zero tile and then one step over it. -/
theorem acc_A (c : Dev nD) (i : grid0.Coords) (arg4 : Memref sig .tc .vmem S1x1024x1024 .bf16) (harg4 : arg4.IsWhole) (arg5 : Memref sig .tc .vmem S1024x4096 .bf16) (harg5 : arg5.IsWhole) (arg6 : Memref sig .tc .vmem S1024 .f32) (harg6 : arg6.IsWhole) (arg7 : Memref sig .tc .vmem S1x1024x16 .bf16) (harg7 : arg7.IsWhole) (arg8 : Memref sig .tc .vmem S1x1024x16 .bf16) (harg8 : arg8.IsWhole) (arg9 : Memref sig .tc .vmem S1x1024x1024 .f32) (harg9 : arg9.IsWhole) (arg10 : Memref sig .tc .vmem S1024x1024 .f32) (harg10 : arg10.IsWhole) (hc0 : cond0_0 i) (hc1 : ¬cond0_1 i)
    (x0 : Vec F S1x1024x1024 .bf16) (x1 : Vec F S1024x4096 .bf16) (x2 : Vec F S1024 .f32) (x3 : Vec F S1x1024x16 .bf16) (x4 : Vec F S1x1024x16 .bf16) :
    sout0_A_0 c i arg4 harg4 arg5 harg5 arg6 harg6 arg7 harg7 arg8 harg8 arg9 harg9 arg10 harg10 hc0 hc1 x0 x1 x2 x3 x4 = k0_pay2 x0 (wcols i x1) k0_pay1 := by
  unfold sout0_A_0
  rw [View.read_writes_eq_canon _ _ _ (scover0_A_0 c i arg4 harg4 arg5 harg5 arg6 harg6 arg7 harg7 arg8 harg8 arg9 harg9 arg10 harg10 hc0 hc1 x0 x1 x2 x3 x4)]
  unfold kernelRun0_A
  dsimp only
  sl_unfold_run_names
  rw [View.canon_cons_unit_zero (S := S1024x1024) hz2, View.readCov_unit_zero (S := S1024x1024) _ hz2]
  simp only [View.readAt_eq_ld, harg4.read_unread, harg5.read_unread,
    View.ld_unit_zero (S := S1x1024x1024) hz3]

end Cert.KernelIdeal.Pieces

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.Tile.lean ====
/-
  The tile's arithmetic read at an entry, on the extended reals.

  One grid point works on a 1024 x 1024 tile of the output. Three values are stored by the body:

  * the zero tile, at the first step of a reduction run (`reset_apply`);
  * one reduction step: the accumulator plus the product of a 1024 x 1024 block of the activations with the transpose of a
    1024 x 1024 block of the weights, so that entry (r, q) gains the sum over k of x(r, k) * w(q, k) (`step_apply`);
  * at the last step, the output tile: the accumulator plus the bias entry of the column, plus the low-rank correction,
    the sum over the 16 rank coordinates j of u(r, j) * v(q, j) (`finish_apply`).

  The leading unit axis of a block is dropped and restored by shape casts that do not move an entry, and the changes of
  float format are the identity on the extended reals, so each value is a plain sum of products.
-/
import proofs.«136694_j58918361366727_2_alg».proof.Proof.Gen.KernelIdeal.Skeleton
import proofs.«136694_j58918361366727_2_alg».proof.Proof.LibDotsNT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The tile stored at the first step of a run is zero at every entry. -/
theorem reset_apply (j : S1024x1024.Idx) : k0_pay1 (F := Ideal) j = 0 := by
  unfold k0_pay1
  refine (congrFun (shapeCast_self _ _) j).trans ?_
  exact Ideal.ofBits_zero_f32

/-- One reduction step at entry (r, q): the accumulator there plus the sum over k of x(0, r, k) * w(q, k). -/
theorem step_apply (x : Vec Ideal S1x1024x1024 .bf16) (w : Vec Ideal S1024x1024 .bf16) (acc : Vec Ideal S1024x1024 .f32)
    (r q : Fin 1024) :
    k0_pay2 x w acc (ix2 r q) = acc (ix2 r q) + ∑ k : Fin 1024, x (ix3 (0 : Fin 1) r k) * w (ix2 q k) := by
  unfold k0_pay2
  refine (congrFun (shapeCast_self _ _) (ix2 r q)).trans ?_
  refine congrArg (acc (ix2 r q) + ·) ?_
  refine (Cert.LibDotsNT.nt_matmul_zero_apply dot_S1024x1024_S1024x1024_S1024x1024_1_1_0_0_n_n rfl rfl rfl rfl rfl rfl
    none _ _ r q).trans ?_
  refine Finset.sum_congr rfl fun k _ => ?_
  rw [shapeCast_1ab_ab_apply, shapeCast_self]

/-- The output tile at entry (0, r, q): the accumulator plus the bias of column q, plus the sum over the rank coordinate
    j of u(0, r, j) * v(0, q, j). -/
theorem finish_apply (u v : Vec Ideal S1x1024x16 .bf16) (bias : Vec Ideal S1024 .f32) (acc : Vec Ideal S1024x1024 .f32)
    (r q : Fin 1024) :
    k0_pay3 u v bias acc (ix3 (0 : Fin 1) r q)
      = (acc (ix2 r q) + bias (ix1 q)) + ∑ j : Fin 16, u (ix3 (0 : Fin 1) r j) * v (ix3 (0 : Fin 1) q j) := by
  unfold k0_pay3
  refine (shapeCast_ab_1ab_apply _ _ (0 : Fin 1) r q).trans ?_
  show (acc (ix2 r q) + _) + _ = _
  congr 1
  · refine congrArg (acc (ix2 r q) + ·) ?_
    refine (broadcastTo_1b_ab_apply _ _ r q).trans ?_
    exact shapeCast_a_1a_apply _ _ (0 : Fin 1) q
  · refine (Cert.LibDotsNT.nt_matmul_zero_apply dot_S1024x16_S1024x16_S1024x1024_1_1_0_0_n_n rfl rfl rfl rfl rfl rfl
      none _ _ r q).trans ?_
    refine Finset.sum_congr rfl fun j _ => ?_
    rw [shapeCast_1ab_ab_apply, shapeCast_1ab_ab_apply]

end Cert.KernelIdeal.Tile

end
-- ==== Proof.Fold.lean ====
/-
  The accumulator over a reduction run, and the output tile at the run's last point, entry by entry.

  The four points 4 g, 4 g + 1, 4 g + 2, 4 g + 3 of the grid differ only in the reduction coordinate k = 0, 1, 2, 3.
  The accumulator is reset to zero at the first of them and each of the four adds its own addend: at tile entry (r, q)
  the sum over the 1024 coordinates of the point's activation block row r times the point's weight columns row q. After
  the last point the accumulator at (r, q) is therefore zero plus the four addends, and the output tile is that plus the
  bias plus the low-rank correction.
-/
import proofs.«136694_j58918361366727_2_alg».proof.Proof.Gen.KernelIdeal.Value
import proofs.«136694_j58918361366727_2_alg».proof.Proof.Pieces
import proofs.«136694_j58918361366727_2_alg».proof.Proof.Tile

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The blocks of a point as arrays of extended reals: the activation block, the step's weight columns, the bias
    block, the two low-rank blocks. -/
abbrev xblk (c : Dev nD) (t : Fin cfg0.N) : S1x1024x1024.Idx → EReal := iblk m c 0 t
abbrev wblk (c : Dev nD) (t : Fin cfg0.N) : S1024x1024.Idx → EReal := Pieces.wcols (grid0.coords t) (iblk m c 1 t)
abbrev bblk (c : Dev nD) (t : Fin cfg0.N) : S1024.Idx → EReal := iblk m c 2 t
abbrev ublk (c : Dev nD) (t : Fin cfg0.N) : S1x1024x16.Idx → EReal := iblk m c 3 t
abbrev vblk (c : Dev nD) (t : Fin cfg0.N) : S1x1024x16.Idx → EReal := iblk m c 4 t

/-- What point `n` adds to the accumulator at tile entry (r, q) (zero past the grid, where it is never used). -/
def addend (c : Dev nD) (n : ℕ) (r q : Fin 1024) : EReal :=
  if h : n < cfg0.N then
    ∑ k : Fin 1024, xblk m c ⟨n, h⟩ (ix3 (0 : Fin 1) r k) * wblk m c ⟨n, h⟩ (ix2 q k)
  else 0

/-- One step at point `n` over any accumulator, at an entry. -/
theorem step_entry (c : Dev nD) (n : ℕ) (h : n < cfg0.N) (acc : Vec Ideal S1024x1024 .f32) (r q : Fin 1024) :
    k0_pay2 (iblk m c 0 ⟨n, h⟩) (Pieces.wcols (grid0.coords ⟨n, h⟩) (iblk m c 1 ⟨n, h⟩)) acc (ix2 r q)
      = acc (ix2 r q) + addend m c n r q :=
  (Tile.step_apply (iblk m c 0 ⟨n, h⟩) (Pieces.wcols (grid0.coords ⟨n, h⟩) (iblk m c 1 ⟨n, h⟩)) acc r q).trans
    (by unfold addend; rw [dif_pos h])

/-- The first point of a run leaves zero plus its addend. -/
theorem first_entry (c : Dev nD) (n : ℕ) (h : n < cfg0.N) (h0 : n % 4 = 0) (i : S1024x1024.Idx) :
    Value.scAt0_0 m c n h (VS0_0.read (Elt Ideal) VS0_0.junk) i = 0 + addend m c n (i 0) (i 1) := by
  obtain ⟨r, q, rfl⟩ : ∃ r q : Fin 1024, i = ix2 r q := ⟨i 0, i 1, eq_ix2 i⟩
  have h1 : ¬n % 4 = 3 := by omega
  unfold Value.scAt0_0
  rw [dif_pos h0, dif_neg h1]
  refine (congrFun (Pieces.acc_A c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N))) (ix2 r q)).trans ?_
  refine (step_entry m c n h (k0_pay1 (F := Ideal)) r q).trans ?_
  rw [Tile.reset_apply]

/-- Every later point of the run adds its addend to what the point before left. -/
theorem later_entry (c : Dev nD) (n : ℕ) (h : n < cfg0.N) (h0 : ¬n % 4 = 0) (acc : Vec Ideal S1024x1024 .f32)
    (i : S1024x1024.Idx) :
    Value.scAt0_0 m c n h acc i = acc i + addend m c n (i 0) (i 1) := by
  obtain ⟨r, q, rfl⟩ : ∃ r q : Fin 1024, i = ix2 r q := ⟨i 0, i 1, eq_ix2 i⟩
  unfold Value.scAt0_0
  by_cases h1 : n % 4 = 3
  · rw [dif_neg h0, dif_pos h1]
    refine (congrFun (Pieces.acc_C c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) (ix2 r q)).trans ?_
    exact step_entry m c n h acc r q
  · rw [dif_neg h0, dif_neg h1]
    refine (congrFun (Pieces.acc_B c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) (ix2 r q)).trans ?_
    exact step_entry m c n h acc r q

/-- After the last point of a run the accumulator holds, at (r, q), zero plus the run's four addends. -/
theorem acc_entry (c : Dev nD) (t : Fin cfg0.N) (h3 : t.val % 4 = 3) (r q : Fin 1024) :
    (outsAt0 m c t.val t.isLt).2 (ix2 r q) = 0 + ∑ s ∈ Finset.range 4, addend m c (4 * (t.val / 4) + s) r q := by
  have hN : cfg0.N = 256 := N_0
  have ht := t.isLt
  rw [Value.soutsAt0_0_eq m c t]
  have key := Pipeline.accAt_add_apply (N := cfg0.N) (ι := S1024x1024.Idx) (β := EReal)
    (fun n h => Value.scAt0_0 m c n h (VS0_0.read (Elt Ideal) VS0_0.junk)) (Value.scAt0_0 m c)
    (fun _ => 0) (fun n i => addend m c n (i 0) (i 1)) (4 * (t.val / 4)) 3
    (fun h i => first_entry m c (4 * (t.val / 4)) h (by omega) i)
    (fun n h acc i hb he => later_entry m c n h (by omega) acc i)
    (t.val % 4) (by omega) (by omega) (ix2 r q)
  rw [key, h3]

/-- The output tile after the last point of a run, at entry (0, r, q): the accumulator there plus the bias block's
    entry q, plus the sum over the rank coordinate of the two low-rank blocks' rows r and q. -/
theorem out_entry (c : Dev nD) (t : Fin cfg0.N) (h3 : t.val % 4 = 3) (r q : Fin 1024) :
    (outsAt0 m c t.val t.isLt).1 (ix3 (0 : Fin 1) r q)
      = ((outsAt0 m c t.val t.isLt).2 (ix2 r q) + bblk m c t (ix1 q))
        + ∑ j : Fin 16, ublk m c t (ix3 (0 : Fin 1) r j) * vblk m c t (ix3 (0 : Fin 1) q j) := by
  have h0 : ¬t.val % 4 = 0 := by omega
  rw [outsAt0_C m c t h0 h3]
  dsimp only
  rw [Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) _, Pieces.acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) _]
  exact Tile.finish_apply (iblk m c 3 t) (iblk m c 4 t) (iblk m c 2 t) _ r q

end Cert.KernelIdeal.Fold

end
-- ==== Proof.Blocks.lean ====
/-
  The blocks a grid point works on, read at an entry of the arrays the region finds.

  The grid has four axes (n, b, m, k) of extents (4, 8, 2, 4), so a point's position t in the run decomposes as
  n = t / 64, b = t / 8 % 8, m = t / 4 % 2, k = t % 4. At that point

  * the activation block is batch b, rows 1024 m .. 1024 m + 1023, columns 1024 k .. 1024 k + 1023 of the activations;
  * the weight slab is rows 1024 n .. 1024 n + 1023 of the weights, all 4096 columns, of which the step uses the
    columns 1024 k .. 1024 k + 1023;
  * the bias block is entries 1024 n .. 1024 n + 1023 of the bias;
  * the left low-rank block is batch b, rows 1024 m .. of the [8, 2048, 16] array, all 16 columns;
  * the right low-rank block is batch b, rows 1024 n .. of the [8, 4096, 16] array, all 16 columns;
  * the output block is batch b, rows 1024 m .., columns 1024 n .. of the result.

  The index maps are decided once over the 256 points; each block entry is then the array's entry at the block's offset
  plus the entry's own coordinate, axis by axis.
-/
import proofs.«136694_j58918361366727_2_alg».proof.Proof.Pieces
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps and the reduction coordinate in closed form, decided over the grid. -/
theorem idx_facts : ∀ t : Fin cfg0.N,
    win0_0.index t (0 : Fin 3) = t.val / 8 % 8 ∧ win0_0.index t (1 : Fin 3) = t.val / 4 % 2
    ∧ win0_0.index t (2 : Fin 3) = t.val % 4
    ∧ win0_1.index t (0 : Fin 2) = t.val / 64 ∧ win0_1.index t (1 : Fin 2) = 0
    ∧ win0_2.index t (0 : Fin 1) = t.val / 64
    ∧ win0_3.index t (0 : Fin 3) = t.val / 8 % 8 ∧ win0_3.index t (1 : Fin 3) = t.val / 4 % 2
    ∧ win0_3.index t (2 : Fin 3) = 0
    ∧ win0_4.index t (0 : Fin 3) = t.val / 8 % 8 ∧ win0_4.index t (1 : Fin 3) = t.val / 64
    ∧ win0_4.index t (2 : Fin 3) = 0
    ∧ win0_5.index t (0 : Fin 3) = t.val / 8 % 8 ∧ win0_5.index t (1 : Fin 3) = t.val / 4 % 2
    ∧ win0_5.index t (2 : Fin 3) = t.val / 64
    ∧ ((grid0.coords t) 3).val = t.val % 4 :=
  (by decide +kernel : ∀ t : Fin grid0.N, _)

/-- The activation block at an entry. -/
theorem x_apply (c : Dev nD) (t : Fin cfg0.N) (r k : Fin 1024) (i : S8x2048x4096.Idx)
    (h0 : (i 0).val = t.val / 8 % 8) (h1 : (i 1).val = (t.val / 4 % 2) * 1024 + r.val)
    (h2 : (i 2).val = (t.val % 4) * 1024 + k.val) :
    (iblk m c 0 t : Vec F S1x1024x1024 .bf16) (ix3 (0 : Fin 1) r k) = V m c main_v17 i := by
  obtain ⟨e0, e1, e2, -⟩ := idx_facts t
  unfold iblk
  rw [View.read_apply]
  show V m c main_v17 _ = V m c main_v17 i
  refine congrArg (V m c main_v17) (funext fun a => Fin.ext ?_)
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 1024 + 1 * k.val = (i 2).val; omega

/-- The step's offset into the weight slab: column 1024 k. -/
theorem off_eq (t : Fin cfg0.N) : k0_off1 (grid0.coords t) = ![0, 1024 * (t.val % 4)] := by
  rw [k0_off1_eq, (idx_facts t).2.2.2.2.2.2.2.2.2.2.2.2.2.2.2]

/-- The weight columns of the step at an entry. -/
theorem w_apply (c : Dev nD) (t : Fin cfg0.N) (q k : Fin 1024) (i : S4096x4096.Idx)
    (h0 : (i 0).val = (t.val / 64) * 1024 + q.val) (h1 : (i 1).val = (t.val % 4) * 1024 + k.val) :
    Pieces.wcols (grid0.coords t) (iblk m c 1 t : Vec F S1024x4096 .bf16) (ix2 q k) = V m c main_v18 i := by
  obtain ⟨-, -, -, e3, e4, -⟩ := idx_facts t
  have ho := off_eq t
  unfold Pieces.wcols iblk View.ld
  rw [View.read_apply]
  show V m c main_v18 _ = V m c main_v18 i
  refine congrArg (V m c main_v18) (funext fun a => Fin.ext ?_)
  match a with
  | ⟨0, _⟩ =>
    show win0_1.index t (0 : Fin 2) * 1024 + 1 * (k0_off1 (grid0.coords t) 0 + 1 * q.val) = (i 0).val
    rw [ho]; show win0_1.index t (0 : Fin 2) * 1024 + 1 * (0 + 1 * q.val) = (i 0).val; omega
  | ⟨1, _⟩ =>
    show win0_1.index t (1 : Fin 2) * 4096 + 1 * (k0_off1 (grid0.coords t) 1 + 1 * k.val) = (i 1).val
    rw [ho]; show win0_1.index t (1 : Fin 2) * 4096 + 1 * (1024 * (t.val % 4) + 1 * k.val) = (i 1).val; omega

/-- The bias block at an entry. -/
theorem bias_apply (c : Dev nD) (t : Fin cfg0.N) (q : Fin 1024) (i : S4096.Idx)
    (h0 : (i 0).val = (t.val / 64) * 1024 + q.val) :
    (iblk m c 2 t : Vec F S1024 .f32) (ix1 q) = V m c main_arg2 i := by
  obtain ⟨-, -, -, -, -, e5, -⟩ := idx_facts t
  unfold iblk
  rw [View.read_apply]
  show V m c main_arg2 _ = V m c main_arg2 i
  refine congrArg (V m c main_arg2) (funext fun a => Fin.ext ?_)
  match a with
  | ⟨0, _⟩ => show win0_2.index t (0 : Fin 1) * 1024 + 1 * q.val = (i 0).val; omega

/-- The left low-rank block at an entry. -/
theorem u_apply (c : Dev nD) (t : Fin cfg0.N) (r : Fin 1024) (j : Fin 16) (i : S8x2048x16.Idx)
    (h0 : (i 0).val = t.val / 8 % 8) (h1 : (i 1).val = (t.val / 4 % 2) * 1024 + r.val) (h2 : (i 2).val = j.val) :
    (iblk m c 3 t : Vec F S1x1024x16 .bf16) (ix3 (0 : Fin 1) r j) = V m c main_v15 i := by
  obtain ⟨-, -, -, -, -, -, e6, e7, e8, -⟩ := idx_facts t
  unfold iblk
  rw [View.read_apply]
  show V m c main_v15 _ = V m c main_v15 i
  refine congrArg (V m c main_v15) (funext fun a => Fin.ext ?_)
  match a with
  | ⟨0, _⟩ => show win0_3.index t (0 : Fin 3) * 1 + 1 * 0 = (i 0).val; omega
  | ⟨1, _⟩ => show win0_3.index t (1 : Fin 3) * 1024 + 1 * r.val = (i 1).val; omega
  | ⟨2, _⟩ => show win0_3.index t (2 : Fin 3) * 16 + 1 * j.val = (i 2).val; omega

/-- The right low-rank block at an entry. -/
theorem v_apply (c : Dev nD) (t : Fin cfg0.N) (q : Fin 1024) (j : Fin 16) (i : S8x4096x16.Idx)
    (h0 : (i 0).val = t.val / 8 % 8) (h1 : (i 1).val = (t.val / 64) * 1024 + q.val) (h2 : (i 2).val = j.val) :
    (iblk m c 4 t : Vec F S1x1024x16 .bf16) (ix3 (0 : Fin 1) q j) = V m c main_v16 i := by
  obtain ⟨-, -, -, -, -, -, -, -, -, e9, e10, e11, -⟩ := idx_facts t
  unfold iblk
  rw [View.read_apply]
  show V m c main_v16 _ = V m c main_v16 i
  refine congrArg (V m c main_v16) (funext fun a => Fin.ext ?_)
  match a with
  | ⟨0, _⟩ => show win0_4.index t (0 : Fin 3) * 1 + 1 * 0 = (i 0).val; omega
  | ⟨1, _⟩ => show win0_4.index t (1 : Fin 3) * 1024 + 1 * q.val = (i 1).val; omega
  | ⟨2, _⟩ => show win0_4.index t (2 : Fin 3) * 16 + 1 * j.val = (i 2).val; omega

end Cert.KernelIdeal.Blocks

end
-- ==== Proof.LibBlockSum.lean ====
/-
  A sum over a * b consecutive positions taken block by block.

  The positions 0 .. a*b - 1 fall into a blocks of b consecutive ones: position j lies in block j / b at place j % b,
  and block s holds the positions b*s, b*s + 1, .., b*s + b - 1. In a commutative monoid the sum over all positions is
  therefore the sum over the blocks of each block's own sum. Nothing about the summands is used: the law is the
  regrouping of a finite sum, so it holds on the extended reals with their infinities as well.
-/
import Mathlib.Algebra.BigOperators.Fin
import Mathlib.Logic.Equiv.Fin.Basic
import Mathlib.Data.Fintype.BigOperators

open scoped BigOperators

namespace Cert.LibBlockSum

/-- Place jj of block s is a position below a * b. -/
theorem pos_lt {a b : ℕ} (s : Fin a) (jj : Fin b) : b * s.val + jj.val < a * b := by
  have h1 : s.val + 1 ≤ a := s.isLt
  have h2 : jj.val < b := jj.isLt
  calc b * s.val + jj.val < b * s.val + b := by omega
    _ = b * (s.val + 1) := by rw [Nat.mul_add, Nat.mul_one]
    _ ≤ b * a := Nat.mul_le_mul_left b h1
    _ = a * b := Nat.mul_comm b a

/-- The sum over a * b positions is the sum over the a blocks of the sum over each block's b places. -/
theorem sum_blocks {β : Type*} [AddCommMonoid β] (a b : ℕ) (g : Fin (a * b) → β) :
    ∑ j : Fin (a * b), g j = ∑ s : Fin a, ∑ jj : Fin b, g ⟨b * s.val + jj.val, pos_lt s jj⟩ := by
  rw [← Equiv.sum_comp finProdFinEquiv g, Fintype.sum_prod_type]
  refine Finset.sum_congr rfl fun s _ => Finset.sum_congr rfl fun jj _ => congrArg g (Fin.ext ?_)
  show jj.val + b * s.val = b * s.val + jj.val
  exact Nat.add_comm _ _

/-- The same with the blocks counted by naturals below a, as a fold over a run of points produces them: the summand
    of a block number that is out of range is never used. -/
theorem sum_blocks_range {β : Type*} [AddCommMonoid β] (a b : ℕ) (g : Fin (a * b) → β) (f : ℕ → β)
    (hf : ∀ s : Fin a, f s.val = ∑ jj : Fin b, g ⟨b * s.val + jj.val, pos_lt s jj⟩) :
    ∑ s ∈ Finset.range a, f s = ∑ j : Fin (a * b), g j := by
  rw [sum_blocks a b g, Finset.sum_range]
  exact Finset.sum_congr rfl fun s _ => hf s

end Cert.LibBlockSum
-- ==== Proof.Spec.lean ====
/-
  The result as one function of the arrays, entry by entry, and the regrouping that joins the two programs.

  With x the activations [8, 2048, 4096], w the weights [4096, 4096], bias [4096], and the two gathered low-rank
  factors carried as arrays u [8, 2048, 16] (the activations already contracted with the chosen adapter's first
  factor) and v [8, 4096, 16] (the chosen adapter's second factor), entry (b, s, o) of the result is

      ( sum over i < 4096 of x(b, s, i) * w(o, i)  +  bias(o) )  +  sum over j < 16 of u(b, s, j) * v(b, o, j).

  The tiled program takes the long contraction in four blocks of 1024 consecutive coordinates, added to a zero start one
  after the other. On the extended reals addition is commutative and associative with zero neutral (infinities
  included), so the four partial sums add up to the whole contraction: no finiteness is needed anywhere.
-/
import proofs.«136694_j58918361366727_2_alg».proof.Proof.LibBlockSum
import Idealize.ShloMosaic.PureOps.Ideal
import Idealize.ShloMosaic.Lib.ValueIdx

noncomputable section

open scoped BigOperators

namespace Cert.Lora

open Idealize.ShloMosaic Idealize.ShloMosaic.ValueIdx

/-- Entry (b, s, o) of the result. -/
def entry (x : (⟨3, ![8, 2048, 4096]⟩ : Shape).Idx → EReal) (w : (⟨2, ![4096, 4096]⟩ : Shape).Idx → EReal)
    (bias : (⟨1, ![4096]⟩ : Shape).Idx → EReal) (u : (⟨3, ![8, 2048, 16]⟩ : Shape).Idx → EReal)
    (v : (⟨3, ![8, 4096, 16]⟩ : Shape).Idx → EReal) (b : Fin 8) (s : Fin 2048) (o : Fin 4096) : EReal :=
  ((∑ k : Fin 4096, x (ix3 b s k) * w (ix2 o k)) + bias (ix1 o)) + ∑ j : Fin 16, u (ix3 b s j) * v (ix3 b o j)

/-- The whole result array. -/
def result (x : (⟨3, ![8, 2048, 4096]⟩ : Shape).Idx → EReal) (w : (⟨2, ![4096, 4096]⟩ : Shape).Idx → EReal)
    (bias : (⟨1, ![4096]⟩ : Shape).Idx → EReal) (u : (⟨3, ![8, 2048, 16]⟩ : Shape).Idx → EReal)
    (v : (⟨3, ![8, 4096, 16]⟩ : Shape).Idx → EReal) : (⟨3, ![8, 2048, 4096]⟩ : Shape).Idx → EReal :=
  fun i => entry x w bias u v (i 0) (i 1) (i 2)

theorem result_ix3 (x : (⟨3, ![8, 2048, 4096]⟩ : Shape).Idx → EReal) (w : (⟨2, ![4096, 4096]⟩ : Shape).Idx → EReal)
    (bias : (⟨1, ![4096]⟩ : Shape).Idx → EReal) (u : (⟨3, ![8, 2048, 16]⟩ : Shape).Idx → EReal)
    (v : (⟨3, ![8, 4096, 16]⟩ : Shape).Idx → EReal) (b : Fin 8) (s : Fin 2048) (o : Fin 4096) :
    result x w bias u v (ix3 b s o) = entry x w bias u v b s o := rfl

/-- Four partial sums over blocks of 1024 consecutive coordinates, the blocks counted 0, 1, 2, 3, add up to the sum over
    all 4096 coordinates. -/
theorem four_blocks (f : Fin 4096 → EReal) (part : ℕ → EReal)
    (hpart : ∀ s : Fin 4, part s.val
      = ∑ kk : Fin 1024, f ⟨1024 * s.val + kk.val, Cert.LibBlockSum.pos_lt (a := 4) (b := 1024) s kk⟩) :
    ∑ s ∈ Finset.range 4, part s = ∑ k : Fin 4096, f k :=
  Cert.LibBlockSum.sum_blocks_range 4 1024 f part hpart

/-- The tile's form of an entry: a zero start, the four partial sums of the long contraction, then the bias, then the
    low-rank correction -- is the entry. -/
theorem entry_of_parts (x : (⟨3, ![8, 2048, 4096]⟩ : Shape).Idx → EReal) (w : (⟨2, ![4096, 4096]⟩ : Shape).Idx → EReal)
    (bias : (⟨1, ![4096]⟩ : Shape).Idx → EReal) (u : (⟨3, ![8, 2048, 16]⟩ : Shape).Idx → EReal)
    (v : (⟨3, ![8, 4096, 16]⟩ : Shape).Idx → EReal) (b : Fin 8) (s : Fin 2048) (o : Fin 4096) (part : ℕ → EReal)
    (hpart : ∀ g : Fin 4, part g.val = ∑ kk : Fin 1024,
      x (ix3 b s ⟨1024 * g.val + kk.val, Cert.LibBlockSum.pos_lt (a := 4) (b := 1024) g kk⟩)
        * w (ix2 o ⟨1024 * g.val + kk.val, Cert.LibBlockSum.pos_lt (a := 4) (b := 1024) g kk⟩)) :
    ((0 + ∑ g ∈ Finset.range 4, part g) + bias (ix1 o)) + ∑ j : Fin 16, u (ix3 b s j) * v (ix3 b o j)
      = entry x w bias u v b s o := by
  unfold entry
  rw [zero_add, four_blocks (fun k => x (ix3 b s k) * w (ix2 o k)) part hpart]

end Cert.Lora

end
-- ==== Proof.Whole.lean ====
/-
  From tiles to the array: after the run the result array is one function of the arrays the region finds.

  The output block of grid point t is batch b = t / 8 % 8, rows 1024 (t / 4 % 2) .., columns 1024 (t / 64) .. of the
  result, and it is written back at the last point of each reduction run (t % 4 = 3). What is written there is, entry
  by entry, the specification's entry at the block's place in the array: the accumulator holds the four partial sums
  of the long contraction (the four points of the run read the four consecutive column blocks of the activations and of
  the weight rows), and the bias and low-rank blocks sit at the same batch, rows and columns. Every index of the result
  lies in exactly such a block -- that of the point with n = column / 1024, b = batch, m = row / 1024, k = 3 -- so the
  whole array ends at the specification.
-/
import proofs.«136694_j58918361366727_2_alg».proof.Proof.Fold
import proofs.«136694_j58918361366727_2_alg».proof.Proof.Blocks
import proofs.«136694_j58918361366727_2_alg».proof.Proof.Spec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The arrays the region finds, as arrays of extended reals. -/
abbrev xs (c : Dev nD) : S8x2048x4096.Idx → EReal := V m c main_v17
abbrev ws (c : Dev nD) : S4096x4096.Idx → EReal := V m c main_v18
abbrev bs (c : Dev nD) : S4096.Idx → EReal := V m c main_arg2
abbrev us (c : Dev nD) : S8x2048x16.Idx → EReal := V m c main_v15
abbrev vs (c : Dev nD) : S8x4096x16.Idx → EReal := V m c main_v16

/-- What the result array ends holding: the specification over the arrays the region finds. -/
abbrev res (c : Dev nD) : S8x2048x4096.Idx → EReal := Cert.Lora.result (xs m c) (ws m c) (bs m c) (us m c) (vs m c)

/-- The output tile after the last point of a run, at entry (0, r, q), is the specification's entry at batch b, row
    1024 mm + r, column 1024 n + q, where (n, b, mm) are the point's coordinates. -/
theorem tile_entry (c : Dev nD) (t : Fin cfg0.N) (h3 : t.val % 4 = 3) (r q : Fin 1024) (b : Fin 8) (s : Fin 2048)
    (o : Fin 4096) (hb : b.val = t.val / 8 % 8) (hs : s.val = (t.val / 4 % 2) * 1024 + r.val)
    (ho : o.val = (t.val / 64) * 1024 + q.val) :
    (outsAt0 m c t.val t.isLt).1 (ix3 (0 : Fin 1) r q) = Cert.Lora.entry (xs m c) (ws m c) (bs m c) (us m c) (vs m c) b s o := by
  have hN : cfg0.N = 256 := N_0
  have ht : t.val < 256 := lt_of_lt_of_eq t.isLt hN
  rw [Fold.out_entry m c t h3 r q, Fold.acc_entry m c t h3 r q]
  have hbias : Fold.bblk m c t (ix1 q) = bs m c (ix1 o) := Blocks.bias_apply m c t q (ix1 o) ho
  have hlow : ∀ j : Fin 16, Fold.ublk m c t (ix3 (0 : Fin 1) r j) * Fold.vblk m c t (ix3 (0 : Fin 1) q j)
      = us m c (ix3 b s j) * vs m c (ix3 b o j) := fun j => by
    rw [show Fold.ublk m c t (ix3 (0 : Fin 1) r j) = us m c (ix3 b s j) from Blocks.u_apply m c t r j (ix3 b s j) hb hs rfl,
      show Fold.vblk m c t (ix3 (0 : Fin 1) q j) = vs m c (ix3 b o j) from Blocks.v_apply m c t q j (ix3 b o j) hb ho rfl]
  rw [hbias, Finset.sum_congr rfl fun j _ => hlow j]
  refine Cert.Lora.entry_of_parts (xs m c) (ws m c) (bs m c) (us m c) (vs m c) b s o
    (fun g => Fold.addend m c (4 * (t.val / 4) + g) r q) fun g => ?_
  have hg := g.isLt
  have hn : 4 * (t.val / 4) + g.val < cfg0.N := lt_of_lt_of_eq (by omega : 4 * (t.val / 4) + g.val < 256) hN.symm
  unfold Fold.addend
  rw [dif_pos hn]
  refine Finset.sum_congr rfl fun kk _ => ?_
  have hkk := kk.isLt
  rw [show Fold.xblk m c ⟨4 * (t.val / 4) + g.val, hn⟩ (ix3 (0 : Fin 1) r kk) = xs m c (ix3 b s ⟨1024 * g.val + kk.val, Cert.LibBlockSum.pos_lt (a := 4) (b := 1024) g kk⟩) from
      Blocks.x_apply m c ⟨4 * (t.val / 4) + g.val, hn⟩ r kk _ (by show b.val = _; dsimp only; omega)
        (by show s.val = _; dsimp only; omega) (by show 1024 * g.val + kk.val = _; dsimp only; omega),
    show Fold.wblk m c ⟨4 * (t.val / 4) + g.val, hn⟩ (ix2 q kk) = ws m c (ix2 o ⟨1024 * g.val + kk.val, Cert.LibBlockSum.pos_lt (a := 4) (b := 1024) g kk⟩) from
      Blocks.w_apply m c ⟨4 * (t.val / 4) + g.val, hn⟩ q kk _ (by show o.val = _; dsimp only; omega)
        (by show 1024 * g.val + kk.val = _; dsimp only; omega)]

/-- WHAT A LAST POINT WRITES BACK is its block of the specification. -/
theorem flushed_eq (c : Dev nD) (t : Fin cfg0.N) (hf : (cfg0.win 5).flush t = true) :
    (dats m 0 c).flushed 5 t = ((cfg0.win 5).blk t).view.read (Elt Ideal) (res m c) := by
  have h3 : t.val % 4 = 3 := (flush0_5 t).mp hf
  have hN : cfg0.N = 256 := N_0
  have ht : t.val < 256 := lt_of_lt_of_eq t.isLt hN
  obtain ⟨-, -, -, -, -, -, -, -, -, -, -, -, e12, e13, e14, -⟩ := Blocks.idx_facts t
  rw [Value.flushed5]
  funext y
  obtain ⟨u0, r, q, rfl⟩ : ∃ (u0 : Fin 1) (r q : Fin 1024), y = ix3 u0 r q := ⟨y 0, y 1, y 2, eq_ix3 y⟩
  obtain rfl : u0 = 0 := Subsingleton.elim _ _
  have hr := r.isLt
  have hq := q.isLt
  rw [View.read_apply]
  have hemb : ((cfg0.win 5).blk t).view.emb (ix3 (0 : Fin 1) r q)
      = ix3 (⟨t.val / 8 % 8, by omega⟩ : Fin 8) (⟨(t.val / 4 % 2) * 1024 + r.val, by omega⟩ : Fin 2048)
          (⟨(t.val / 64) * 1024 + q.val, by omega⟩ : Fin 4096) := funext fun a => Fin.ext (by
    match a with
    | ⟨0, _⟩ => show win0_5.index t (0 : Fin 3) * 1 + 1 * 0 = t.val / 8 % 8; omega
    | ⟨1, _⟩ => show win0_5.index t (1 : Fin 3) * 1024 + 1 * r.val = (t.val / 4 % 2) * 1024 + r.val; omega
    | ⟨2, _⟩ => show win0_5.index t (2 : Fin 3) * 1024 + 1 * q.val = (t.val / 64) * 1024 + q.val; omega)
  show (outsAt0 m c t.val t.isLt).1 (ix3 (0 : Fin 1) r q) = res m c (((cfg0.win 5).blk t).view.emb (ix3 (0 : Fin 1) r q))
  rw [hemb]
  exact tile_entry m c t h3 r q _ _ _ rfl rfl rfl

/-- An index of the result is in point t's block iff each coordinate is in the block's range on its axis. -/
theorem mem_blk (t : Fin cfg0.N) (i : S8x2048x4096.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v19).slice (win0_5.rect t)).set ↔ _
  rw [View.set_slice_whole, Rect.mem_set_unit]
  exact Iff.rfl

/-- Every index of the result is in the block of a last point. -/
theorem cover (i : S8x2048x4096.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 4096 := (i 2).isLt
  have hN : cfg0.N = 256 := N_0
  obtain ⟨tv, htv⟩ : ∃ tv : ℕ, tv = (((i 2).val / 1024 * 8 + (i 0).val) * 2 + (i 1).val / 1024) * 4 + 3 := ⟨_, rfl⟩
  have hlt : tv < cfg0.N := lt_of_lt_of_eq (by omega : tv < 256) hN.symm
  obtain ⟨-, -, -, -, -, -, -, -, -, -, -, -, e12, e13, e14, -⟩ := Blocks.idx_facts (⟨tv, hlt⟩ : Fin cfg0.N)
  refine ⟨⟨tv, hlt⟩, (flush0_5 _).mpr (by show tv % 4 = 3; omega), ?_⟩
  rw [mem_blk]
  intro a
  match a with
  | ⟨0, _⟩ =>
    show win0_5.index ⟨tv, hlt⟩ (0 : Fin 3) * 1 ≤ (i 0).val ∧ (i 0).val < win0_5.index ⟨tv, hlt⟩ (0 : Fin 3) * 1 + 1
    rw [e12]; show tv / 8 % 8 * 1 ≤ (i 0).val ∧ (i 0).val < tv / 8 % 8 * 1 + 1; omega
  | ⟨1, _⟩ =>
    show win0_5.index ⟨tv, hlt⟩ (1 : Fin 3) * 1024 ≤ (i 1).val ∧ (i 1).val < win0_5.index ⟨tv, hlt⟩ (1 : Fin 3) * 1024 + 1024
    rw [e13]; show tv / 4 % 2 * 1024 ≤ (i 1).val ∧ (i 1).val < tv / 4 % 2 * 1024 + 1024; omega
  | ⟨2, _⟩ =>
    show win0_5.index ⟨tv, hlt⟩ (2 : Fin 3) * 1024 ≤ (i 2).val ∧ (i 2).val < win0_5.index ⟨tv, hlt⟩ (2 : Fin 3) * 1024 + 1024
    rw [e14]; show tv / 64 * 1024 ≤ (i 2).val ∧ (i 2).val < tv / 64 * 1024 + 1024; omega

/-- THE ARRAY after the run is the specification over the arrays the region finds. -/
theorem final (c : Dev nD) : (dats m 0 c).arrAt 5 cfg0.N = res m c :=
  (dats m 0 c).arrAt_eq_of_cover 5 (res m c) (fun t hf => flushed_eq m c t hf) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v19) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.Reference.lean ====
/-
  The reference computes the specification.

  Its result is (x contracted with w over the last axis of both, plus the bias spread over batch and rows) plus the
  batched product of the two low-rank arrays over their last axis. Read at entry (b, s, o): the first product is the sum
  over i of x(b, s, i) * w(o, i), the spread bias is bias(o), and the batched product is the sum over j of
  u(b, s, j) * v(b, o, j), where u is the reference's own contraction of the activations with the gathered first factor
  and v its gathered second factor -- both carried here as arrays, never opened.
-/
import proofs.«136694_j58918361366727_2_alg».proof.Proof.Gen.ReferenceIdeal.Read
import proofs.«136694_j58918361366727_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's last stage is the specification over its arguments and its two low-rank arrays. -/
theorem result_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S8x16x4096, .f32⟩ : BufTy).Contents (Elt Ideal))
    (x4 : (⟨S8x4096x16, .f32⟩ : BufTy).Contents (Elt Ideal)) (x5 : (⟨S8, .i32⟩ : BufTy).Contents (Elt Ideal)) :
    val_main_v20 (F := Ideal) x0 x1 x2 x3 x4 x5
      = Cert.Lora.result x0 x1 x2 (val_main_v18 (F := Ideal) x0 x3 x5) (val_main_v17 (F := Ideal) x4 x5) := by
  funext i
  obtain ⟨b, s, o, rfl⟩ : ∃ (b : Fin 8) (s : Fin 2048) (o : Fin 4096), i = ix3 b s o := ⟨i 0, i 1, i 2, eq_ix3 i⟩
  rw [Cert.Lora.result_ix3]
  unfold Cert.Lora.entry
  have e0 : ∀ k : Fin 4096, lidx_main_v0 (ix3 b s o) k = ix3 b s k := fun k => funext fun a => Fin.ext (by
    match a with | ⟨0, _⟩ => rfl | ⟨1, _⟩ => rfl | ⟨2, _⟩ => rfl)
  have e1 : ∀ k : Fin 4096, ridx_main_v0 (ix3 b s o) k = ix2 o k := fun k => funext fun a => Fin.ext (by
    match a with | ⟨0, _⟩ => rfl | ⟨1, _⟩ => rfl)
  have e2 : idx_main_v1 (idx_main_v2 (ix3 b s o)) = ix1 o := funext fun a => Fin.ext (by
    match a with | ⟨0, _⟩ => rfl)
  have e3 : ∀ j : Fin 16, lidx_main_v19 (ix3 b s o) j = ix3 b s j := fun j => funext fun a => Fin.ext (by
    match a with | ⟨0, _⟩ => rfl | ⟨1, _⟩ => rfl | ⟨2, _⟩ => rfl)
  have e4 : ∀ j : Fin 16, ridx_main_v19 (ix3 b s o) j = ix3 b o j := fun j => funext fun a => Fin.ext (by
    match a with | ⟨0, _⟩ => rfl | ⟨1, _⟩ => rfl | ⟨2, _⟩ => rfl)
  rw [val_main_v20_apply, val_main_v3_apply, val_main_v0_apply, val_main_v2_apply, val_main_v1_apply, val_main_v19_apply]
  simp only [e0, e1, e2, e3, e4]
  rfl

end Cert.ReferenceIdeal.RefValue

end
-- ==== Proof.Bridge.lean ====
/-
  The arrays the region finds, in terms of the program's arguments.

  Before the region the program rounds the activations and the weights to a narrower float format -- the identity on the
  extended reals --, gathers the two adapter factors at the (wrapped) adapter numbers, contracts the activations with
  the first gathered factor, and rounds that and the second gathered factor. So the region finds the activations, the
  weights and the bias themselves, and, as its two low-rank arrays, exactly the reference's two intermediate arrays: the
  same gathers and the same contraction of the same arguments, operation for operation.
-/
import proofs.«136694_j58918361366727_2_alg».proof.Proof.Whole
import proofs.«136694_j58918361366727_2_alg».proof.Proof.Reference
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The region finds the activations themselves (the rounding before it is the identity on the extended reals), -/
theorem xs_eq (c : Dev nD) : Whole.xs m c = m ((c : Thread nD τ).loc main_arg0) := by
  have e : (V m c main_v17 : S8x2048x4096.Idx → EReal) = m ((c : Thread nD τ).loc main_arg0) := by
    dsimp only [Gen.V, Gen.hostOps0]; after_results <;> rfl
  exact e

/-- the weights themselves, -/
theorem ws_eq (c : Dev nD) : Whole.ws m c = m ((c : Thread nD τ).loc main_arg1) := by
  have e : (V m c main_v18 : S4096x4096.Idx → EReal) = m ((c : Thread nD τ).loc main_arg1) := by
    dsimp only [Gen.V, Gen.hostOps0]; after_results <;> rfl
  exact e

/-- the bias itself, -/
theorem bs_eq (c : Dev nD) : Whole.bs m c = m ((c : Thread nD τ).loc main_arg2) := V_main_arg2 m c

/-- the reference's contraction of the activations with the gathered first factor, -/
theorem us_eq (c : Dev nD) : Whole.us m c
    = Cert.ReferenceIdeal.Read.val_main_v18 (F := Ideal) (m ((c : Thread nD τ).loc main_arg0)) (m ((c : Thread nD τ).loc main_arg3)) (m ((c : Thread nD τ).loc main_arg5)) := by
  have e : (V m c main_v15 : S8x2048x16.Idx → EReal)
      = Cert.ReferenceIdeal.Read.val_main_v18 (F := Ideal) (m ((c : Thread nD τ).loc main_arg0)) (m ((c : Thread nD τ).loc main_arg3)) (m ((c : Thread nD τ).loc main_arg5)) := by
    dsimp only [Gen.V, Gen.hostOps0]; after_results <;> rfl
  exact e

/-- and the reference's gathered second factor. -/
theorem vs_eq (c : Dev nD) : Whole.vs m c
    = Cert.ReferenceIdeal.Read.val_main_v17 (F := Ideal) (m ((c : Thread nD τ).loc main_arg4)) (m ((c : Thread nD τ).loc main_arg5)) := by
  have e : (V m c main_v16 : S8x4096x16.Idx → EReal)
      = Cert.ReferenceIdeal.Read.val_main_v17 (F := Ideal) (m ((c : Thread nD τ).loc main_arg4)) (m ((c : Thread nD τ).loc main_arg5)) := by
    dsimp only [Gen.V, Gen.hostOps0]; after_results <;> rfl
  exact e

/-- So the result array ends at the specification over the arguments and the reference's two low-rank arrays. -/
theorem res_eq (c : Dev nD) : Whole.res m c
    = Cert.Lora.result (m ((c : Thread nD τ).loc main_arg0)) (m ((c : Thread nD τ).loc main_arg1)) (m ((c : Thread nD τ).loc main_arg2))
        (Cert.ReferenceIdeal.Read.val_main_v18 (F := Ideal) (m ((c : Thread nD τ).loc main_arg0)) (m ((c : Thread nD τ).loc main_arg3)) (m ((c : Thread nD τ).loc main_arg5)))
        (Cert.ReferenceIdeal.Read.val_main_v17 (F := Ideal) (m ((c : Thread nD τ).loc main_arg4)) (m ((c : Thread nD τ).loc main_arg5))) := by
  show Cert.Lora.result (Whole.xs m c) (Whole.ws m c) (Whole.bs m c) (Whole.us m c) (Whole.vs m c) = _
  rw [xs_eq, ws_eq, bs_eq, us_eq, vs_eq]

end Cert.KernelIdeal.Bridge

end
-- ==== Proof.lean ====
/-
  The certificate of a tiled linear layer with a low-rank per-batch correction against its plain reference.

  Both programs compute, for activations x [8, 2048, 4096], weights w [4096, 4096], a bias [4096] and one adapter per
  batch entry (two factors gathered at the entry's adapter number),

      out(b, s, o) = sum_i x(b, s, i) w(o, i) + bias(o) + sum_j u(b, s, j) v(b, o, j),

  where u is x contracted with the adapter's first factor and v is the adapter's second factor. The reference does it
  in whole-array operations. The kernel tiles the output in 1024 x 1024 blocks and takes the long contraction in four
  blocks of 1024 accumulated from zero over the innermost grid axis, adding the bias and the low-rank correction at the
  last step; it also rounds its operands to a narrower float format on the way in.

  On the extended reals the rounding is the identity and a sum may be regrouped freely, so the two results agree entry by
  entry with no hypothesis on the inputs: the precondition is never opened. The gathers and the contraction that produce
  u and v are the same operations of the same arguments in both programs and are carried as arrays.

  The frames of the two kernel programs and the kernel's run are generated modules; the reference's frame is its generated
  run with the result dropped. The ideal pass rewrote nothing, so there is nothing to preserve.
-/
import proofs.«136694_j58918361366727_2_alg».proof.Defs
import proofs.«136694_j58918361366727_2_alg».proof.Proof.Gen.Kernel
import proofs.«136694_j58918361366727_2_alg».proof.Proof.Gen.Kernel.Skeleton
import proofs.«136694_j58918361366727_2_alg».proof.Proof.Gen.Kernel.Launch
import proofs.«136694_j58918361366727_2_alg».proof.Proof.Gen.Kernel.Points
import proofs.«136694_j58918361366727_2_alg».proof.Proof.Gen.Kernel.Frame
import proofs.«136694_j58918361366727_2_alg».proof.Proof.Gen.KernelIdeal
import proofs.«136694_j58918361366727_2_alg».proof.Proof.Gen.KernelIdeal.Skeleton
import proofs.«136694_j58918361366727_2_alg».proof.Proof.Gen.KernelIdeal.Launch
import proofs.«136694_j58918361366727_2_alg».proof.Proof.Gen.KernelIdeal.Points
import proofs.«136694_j58918361366727_2_alg».proof.Proof.Gen.KernelIdeal.Frame
import proofs.«136694_j58918361366727_2_alg».proof.Proof.Gen.ReferenceIdeal
import proofs.«136694_j58918361366727_2_alg».proof.Proof.Gen.KernelIdeal.Value
import proofs.«136694_j58918361366727_2_alg».proof.Proof.Gen.ReferenceIdeal.Run
import proofs.«136694_j58918361366727_2_alg».proof.Proof.Gen.ReferenceIdeal.Read
import proofs.«136694_j58918361366727_2_alg».proof.Proof.Gen.Pre_finite_inputs
import proofs.«136694_j58918361366727_2_alg».proof.Proof.Bridge
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result's value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments both programs end with the specification of those arguments in their
    result arrays. -/
theorem algebraic : Cert.algebraic_KernelIdeal_ReferenceIdeal := by
  intro m ρ m' ρ' _ hagree
  refine ⟨fun c => Cert.KernelIdeal.Whole.res m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v20_eq, Cert.ReferenceIdeal.RefValue.result_eq, a0, a1, a2, a3, a4, a5]
  exact (Cert.KernelIdeal.Bridge.res_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
